-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x32x128 : Shape := ⟨3, ![32, 32, 128]⟩
abbrev S256x200x128 : Shape := ⟨3, ![256, 200, 128]⟩
abbrev S_ : Shape := ⟨0, ![]⟩

class Facts : Prop where
  bcast_S_S32x32x128 : S_.BroadcastsInDim S32x32x128 (![] : Fin 0 → Fin S32x32x128.rank)
  reducesTo_S32x32x128_S_d0_1_2 : S32x32x128.ReducesTo [0, 1, 2] S_
  h_S_ : 0 < S_.numel
  bcast_S_S256x200x128 : S_.BroadcastsInDim S256x200x128 (![] : Fin 0 → Fin S256x200x128.rank)
  reducesTo_S256x200x128_S_d0_1_2 : S256x200x128.ReducesTo [0, 1, 2] S_

variable [Facts]

def fn {F : FTy → Type} [FloatOps F] (main_arg0 : FVec F S32x32x128 .f32) (main_arg1 : FVec F S256x200x128 .f32) : IVec S_ 1 :=
  let main_v0 : FVec F S32x32x128 .f32 := Host.absf main_arg0
  let main_cst : FVec F S_ .f32 := constant S_ .f32 0x7F800000#32
  let main_v1 : FVec F S32x32x128 .f32 := broadcastInDim S32x32x128 ![] bcast_S_S32x32x128 main_cst
  let main_v2 : IVec S32x32x128 1 := cmpf .olt main_v0 main_v1
  let main_c : IVec S_ 1 := constantI S_ 1 1#1
  let main_v3 : IVec S_ 1 := (fun x v => Host.reduce IntOp.andi x v reducesTo_S32x32x128_S_d0_1_2 h_S_) main_v2 main_c
  let main_v4 : FVec F S256x200x128 .f32 := Host.absf main_arg1
  let main_cst_0 : FVec F S_ .f32 := constant S_ .f32 0x7F800000#32
  let main_v5 : FVec F S256x200x128 .f32 := broadcastInDim S256x200x128 ![] bcast_S_S256x200x128 main_cst_0
  let main_v6 : IVec S256x200x128 1 := cmpf .olt main_v4 main_v5
  let main_c_1 : IVec S_ 1 := constantI S_ 1 1#1
  let main_v7 : IVec S_ 1 := (fun x v => Host.reduce IntOp.andi x v reducesTo_S256x200x128_S_d0_1_2 h_S_) main_v6 main_c_1
  let main_v8 : IVec S_ 1 := andi main_v3 main_v7
  main_v8
-- ==== Kernel.lean ====
abbrev S32x32x128 : Shape := ⟨3, ![32, 32, 128]⟩
abbrev S256x200x128 : Shape := ⟨3, ![256, 200, 128]⟩
abbrev S200x256x128 : Shape := ⟨3, ![200, 256, 128]⟩
abbrev S32x256 : Shape := ⟨2, ![32, 256]⟩
abbrev S200x128x128 : Shape := ⟨3, ![200, 128, 128]⟩
abbrev S32x128 : Shape := ⟨2, ![32, 128]⟩
abbrev S25600x128 : Shape := ⟨2, ![25600, 128]⟩
abbrev S1x32x128 : Shape := ⟨3, ![1, 32, 128]⟩
abbrev S32x25600 : Shape := ⟨2, ![32, 25600]⟩
abbrev S32x200x128 : Shape := ⟨3, ![32, 200, 128]⟩
abbrev S128 : Shape := ⟨1, ![128]⟩
abbrev S1x128 : Shape := ⟨2, ![1, 128]⟩
abbrev S32 : Shape := ⟨1, ![32]⟩
abbrev S_ : Shape := ⟨0, ![]⟩
abbrev S32x1 : Shape := ⟨2, ![32, 1]⟩
abbrev S32x1x1 : Shape := ⟨3, ![32, 1, 1]⟩
abbrev S1 : Shape := ⟨1, ![1]⟩
abbrev S1x1x1 : Shape := ⟨3, ![1, 1, 1]⟩

abbrev nBuf : Space → Nat
  | .hbm => 56
  | .vmem => 5
  | .smem => 0
  | _ => 0

abbrev bufTy : (tb : Table) → Fin (tcTables nBuf tb) → BufTy
  | .hbm, ⟨0, _⟩ => ⟨S32x32x128, .f32⟩
  | .hbm, ⟨1, _⟩ => ⟨S256x200x128, .f32⟩
  | .hbm, ⟨2, _⟩ => ⟨S32x32x128, .bf16⟩
  | .hbm, ⟨3, _⟩ => ⟨S200x256x128, .f32⟩
  | .hbm, ⟨4, _⟩ => ⟨S200x256x128, .bf16⟩
  | .hbm, ⟨5, _⟩ => ⟨S32x256, .f32⟩
  | .hbm, ⟨6, _⟩ => ⟨S32, .i32⟩
  | .hbm, ⟨7, _⟩ => ⟨S_, .i32⟩
  | .hbm, ⟨8, _⟩ => ⟨S32, .i32⟩
  | .hbm, ⟨9, _⟩ => ⟨S32, .i32⟩
  | .hbm, ⟨10, _⟩ => ⟨S_, .i32⟩
  | .hbm, ⟨11, _⟩ => ⟨S32, .i32⟩
  | .hbm, ⟨12, _⟩ => ⟨S32, .i32⟩
  | .hbm, ⟨13, _⟩ => ⟨S_, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S32x1, .f32⟩
  | .hbm, ⟨19, _⟩ => ⟨S32x256, .f32⟩
  | .hbm, ⟨20, _⟩ => ⟨S32x256, .f32⟩
  | .hbm, ⟨21, _⟩ => ⟨S32x256, .f32⟩
  | .hbm, ⟨22, _⟩ => ⟨S_, .f32⟩
  | .hbm, ⟨23, _⟩ => ⟨S32, .f32⟩
  | .hbm, ⟨24, _⟩ => ⟨S32x1, .f32⟩
  | .hbm, ⟨25, _⟩ => ⟨S32x1, .f32⟩
  | .hbm, ⟨26, _⟩ => ⟨S32x256, .f32⟩
  | .hbm, ⟨27, _⟩ => ⟨S32x256, .f32⟩
  | .hbm, ⟨28, _⟩ => ⟨S32x1, .i32⟩
  | .hbm, ⟨29, _⟩ => ⟨S_, .i32⟩
  | .hbm, ⟨30, _⟩ => ⟨S32x1, .i32⟩
  | .hbm, ⟨31, _⟩ => ⟨S32x1, .i1⟩
  | .hbm, ⟨32, _⟩ => ⟨S_, .i32⟩
  | .hbm, ⟨33, _⟩ => ⟨S32x1, .i32⟩
  | .hbm, ⟨34, _⟩ => ⟨S32x1, .i32⟩
  | .hbm, ⟨35, _⟩ => ⟨S32x1, .i32⟩
  | .hbm, ⟨36, _⟩ => ⟨S32x1x1, .i32⟩
  | .hbm, ⟨37, _⟩ => ⟨S1, .i32⟩
  | .hbm, ⟨38, _⟩ => ⟨S_, .i32⟩
  | .hbm, ⟨39, _⟩ => ⟨S32x1x1, .i32⟩
  | .hbm, ⟨40, _⟩ => ⟨S32x1x1, .i1⟩
  | .hbm, ⟨41, _⟩ => ⟨S1x1x1, .i32⟩
  | .hbm, ⟨42, _⟩ => ⟨S32x1x1, .i32⟩
  | .hbm, ⟨43, _⟩ => ⟨S32x1x1, .i1⟩
  | .hbm, ⟨44, _⟩ => ⟨S32x1x1, .i1⟩
  | .hbm, ⟨45, _⟩ => ⟨S_, .i1⟩
  | .hbm, ⟨46, _⟩ => ⟨S32x1, .i1⟩
  | .hbm, ⟨47, _⟩ => ⟨S32x1, .f32⟩
  | .hbm, ⟨48, _⟩ => ⟨S_, .f32⟩
  | .hbm, ⟨49, _⟩ => ⟨S32x1, .f32⟩
  | .hbm, ⟨50, _⟩ => ⟨S32x1, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .local _ .vmem, ⟨0, _⟩ => ⟨S32x32x128, .bf16⟩
  | .local _ .vmem, ⟨1, _⟩ => ⟨S200x128x128, .bf16⟩
  | .local _ .vmem, ⟨2, _⟩ => ⟨S200x128x128, .bf16⟩
  | .local _ .vmem, ⟨3, _⟩ => ⟨S32x128, .f32⟩
  | .local _ .vmem, ⟨4, _⟩ => ⟨S32x128, .f32⟩
  | _, _ => ⟨S32x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_c_0 : Ref sig .tc := ⟨.hbm, 10, rfl⟩
abbrev main_v7 : Ref sig .tc := ⟨.hbm, 11, rfl⟩
abbrev main_v8 : Ref sig .tc := ⟨.hbm, 12, rfl⟩
abbrev main_call0_cst : Ref sig .tc := ⟨.hbm, 13, rfl⟩
abbrev main_call0_v0 : Ref sig .tc := ⟨.hbm, 14, rfl⟩
abbrev main_call0_cst_0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_cst_1 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_v9 : Ref sig .tc := ⟨.hbm, 27, rfl⟩
abbrev main_v10 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_cst : Ref sig .tc := ⟨.hbm, 48, rfl⟩
abbrev main_call1_v14 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_cst_1 : Ref sig .tc := ⟨.hbm, 53, rfl⟩
abbrev main_v13 : Ref sig .tc := ⟨.hbm, 54, rfl⟩
abbrev main_v14 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c32_i32 : BitVec 32 := 32#32
  let v3 : BitVec 32 := Scalar.addi c0_i32 c32_i32
  let c1_i32 : BitVec 32 := 1#32
  ⟨c0_i32, v3, c1_i32⟩
def k0_off1 (k0_t1 : Fin k0_t1_loop.trips) : Fin 3 → Nat :=
  let c0_i32_4 : BitVec 32 := 0#32
  let c0_i32 : BitVec 32 := 0#32
  let c1_i32 : BitVec 32 := 1#32
  let arg4 : BitVec 32 := Scf.iv c0_i32 c1_i32 k0_t1
  let c1_i32_3 : BitVec 32 := 1#32
  let v4 : BitVec 32 := Scalar.muli arg4 c1_i32_3
  let v5 : BitVec 32 := Scalar.addi c0_i32_4 v4
  let v6 : Index := Scalar.indexCast v5
  let c0_5 : Index := 0#32
  let c0_6 : Index := 0#32
  ![v6.toNat, 0, 0]
def k0_off2 (k0_t1 : Fin k0_t1_loop.trips) : Fin 2 → Nat :=
  let c0_i32_4 : BitVec 32 := 0#32
  let c0_i32 : BitVec 32 := 0#32
  let c1_i32 : BitVec 32 := 1#32
  let arg4 : BitVec 32 := Scf.iv c0_i32 c1_i32 k0_t1
  let c1_i32_3 : BitVec 32 := 1#32
  let v4 : BitVec 32 := Scalar.muli arg4 c1_i32_3
  let v5 : BitVec 32 := Scalar.addi c0_i32_4 v4
  let v15 : Index := Scalar.indexCast v5
  let c0_10 : Index := 0#32
  ![v15.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x32x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S200x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  transposes_S256x200x128_S200x256x128_1_0_2 : S256x200x128.Transposes [1, 0, 2] S200x256x128
  inb_S200x128x128_S200x128x128_0_0_0 : ∀ a, (![0, 0, 0] : Fin 3 → Nat) a + S200x128x128.size a ≤ S200x128x128.size a
  h_S200x128x128 : 0 < S200x128x128.numel
  shapeCasts_S200x128x128_S200x128x128 : S200x128x128.ShapeCasts S200x128x128
  shapeCasts_S200x128x128_S25600x128 : S200x128x128.ShapeCasts S25600x128
  h_S1x32x128 : 0 < S1x32x128.numel
  shapeCasts_S1x32x128_S32x128 : S1x32x128.ShapeCasts S32x128
  shapeCasts_S32x25600_S32x200x128 : S32x25600.ShapeCasts S32x200x128
  reduces_S32x200x128_S32x128 : S32x200x128.Reduces [1] S32x128
  reduces_S32x128_S128 : S32x128.Reduces [0] S128
  h_S1x128 : 0 < S1x128.numel
  shapeCasts_S1x128_S128 : S1x128.ShapeCasts S128
  shapeCasts_S128_S1x128 : S128.ShapeCasts S1x128
  bcast_S_S32 : S_.BroadcastsInDim S32 (![] : Fin 0 → Fin S32.rank)
  reducesTo_S32x256_S32_d1 : S32x256.ReducesTo [1] S32
  h_S_ : 0 < S_.numel
  bcast_S32_S32x1_0 : S32.BroadcastsInDim S32x1 (![0] : Fin 1 → Fin S32x1.rank)
  bcast_S32x1_S32x256_0_1 : S32x1.BroadcastsInDim S32x256 (![0, 1] : Fin 2 → Fin S32x256.rank)
  bcast_S_S32x1 : S_.BroadcastsInDim S32x1 (![] : Fin 0 → Fin S32x1.rank)
  shapeCasts_S32x1_S32x1x1 : S32x1.ShapeCasts S32x1x1
  bcast_S_S32x1x1 : S_.BroadcastsInDim S32x1x1 (![] : Fin 0 → Fin S32x1x1.rank)
  bcast_S1_S1x1x1_2 : S1.BroadcastsInDim S1x1x1 (![2] : Fin 1 → Fin S1x1x1.rank)
  bcast_S1x1x1_S32x1x1_0_1_2 : S1x1x1.BroadcastsInDim S32x1x1 (![0, 1, 2] : Fin 3 → Fin S32x1x1.rank)
  reducesTo_S32x1x1_S32x1_d2 : S32x1x1.ReducesTo [2] S32x1
  reducesTo_S32x1_S_d0_1 : S32x1.ReducesTo [0, 1] S_
  dot_S32x128_S25600x128_S32x25600_1_1_0_0_n_n_wf : DotDims.WF S32x128 S25600x128 S32x25600 [1] [1] [0] [0] [] []
  gather_S32x256_S32x1x1_S32x1_n_1_0_0_1_2_11_wf : GatherDims.WF S32x256 S32x1x1 S32x1 [] [1] [0] [1] [0] 2 ![1, 1]
  hrank0 : 0 < grid0.rank
  k0_t1_ok : k0_t1_loop.OK
  k0_off1_inb : ∀ k0_t1 : Fin k0_t1_loop.trips, ∀ a, (k0_off1 k0_t1) a + S1x32x128.size a ≤ S32x32x128.size a
  k0_off2_inb : ∀ k0_t1 : Fin k0_t1_loop.trips, ∀ a, (k0_off2 k0_t1) a + S1x128.size a ≤ S32x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x32x128.size a ≤ S32x32x128.size a
  hwx0_0 : ∀ i : grid0.Coords, EltTy.bits .bf16 = 32 ∨ (Rect.block (s := S32x32x128) S32x32x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x128x128.size a ≤ S200x256x128.size a
  hwx0_1 : ∀ i : grid0.Coords, EltTy.bits .bf16 = 32 ∨ (Rect.block (s := S200x256x128) S200x128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S32x256.size a
  hwx0_2 : ∀ i : grid0.Coords, EltTy.bits .f32 = 32 ∨ (Rect.block (s := S32x256) S32x128.size (cc0_transform_2 i) (hinb0_2 i)).WholeWords (EltTy.packing .f32)

variable [Facts₀]

def dot_S32x128_S25600x128_S32x25600_1_1_0_0_n_n : DotDims S32x128 S25600x128 S32x25600 where
  lhsContracting := [1]
  rhsContracting := [1]
  lhsNonContracting := [0]
  rhsNonContracting := [0]
  lhsBatch := []
  rhsBatch := []
  wf := dot_S32x128_S25600x128_S32x25600_1_1_0_0_n_n_wf
def gather_S32x256_S32x1x1_S32x1_n_1_0_0_1_2_11 : GatherDims S32x256 S32x1x1 S32x1 where
  offsetDims := []
  collapsedSliceDims := [1]
  operandBatchingDims := [0]
  startIndicesBatchingDims := [0]
  startIndexMap := [1]
  indexVectorDim := 2
  sliceSizes := ![1, 1]
  wf := gather_S32x256_S32x1x1_S32x1_n_1_0_0_1_2_11_wf

abbrev win0_0 : Pipeline.Window sig grid0 :=
  Pipeline.Window.ofSpec (Memref.whole main_v0) S32x32x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S200x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S32x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x32x128 : Shape := ⟨3, ![32, 32, 128]⟩
abbrev S256x200x128 : Shape := ⟨3, ![256, 200, 128]⟩
abbrev S256x200x32x32 : Shape := ⟨4, ![256, 200, 32, 32]⟩
abbrev S32x256x32x200 : Shape := ⟨4, ![32, 256, 32, 200]⟩
abbrev S_ : Shape := ⟨0, ![]⟩
abbrev S32x256x32 : Shape := ⟨3, ![32, 256, 32]⟩
abbrev S32x256 : Shape := ⟨2, ![32, 256]⟩
abbrev S32 : Shape := ⟨1, ![32]⟩
abbrev S32x1 : Shape := ⟨2, ![32, 1]⟩
abbrev S32x1x1 : Shape := ⟨3, ![32, 1, 1]⟩
abbrev S1 : Shape := ⟨1, ![1]⟩
abbrev S1x1x1 : Shape := ⟨3, ![1, 1, 1]⟩

abbrev nBuf : Space → Nat
  | .hbm => 61
  | .vmem => 0
  | .smem => 0
  | _ => 0

abbrev bufTy : (tb : Table) → Fin (tcTables nBuf tb) → BufTy
  | .hbm, ⟨0, _⟩ => ⟨S32x32x128, .f32⟩
  | .hbm, ⟨1, _⟩ => ⟨S256x200x128, .f32⟩
  | .hbm, ⟨2, _⟩ => ⟨S256x200x32x32, .f32⟩
  | .hbm, ⟨3, _⟩ => ⟨S32x256x32x200, .f32⟩
  | .hbm, ⟨4, _⟩ => ⟨S_, .f32⟩
  | .hbm, ⟨5, _⟩ => ⟨S32x256x32, .f32⟩
  | .hbm, ⟨6, _⟩ => ⟨S_, .f32⟩
  | .hbm, ⟨7, _⟩ => ⟨S32x256, .f32⟩
  | .hbm, ⟨8, _⟩ => ⟨S_, .f32⟩
  | .hbm, ⟨9, _⟩ => ⟨S32x256, .f32⟩
  | .hbm, ⟨10, _⟩ => ⟨S32x256, .f32⟩
  | .hbm, ⟨11, _⟩ => ⟨S32, .i32⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S_, .i32⟩
  | .hbm, ⟨16, _⟩ => ⟨S32, .i32⟩
  | .hbm, ⟨17, _⟩ => ⟨S32, .i32⟩
  | .hbm, ⟨18, _⟩ => ⟨S_, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S32x1, .f32⟩
  | .hbm, ⟨24, _⟩ => ⟨S32x256, .f32⟩
  | .hbm, ⟨25, _⟩ => ⟨S32x256, .f32⟩
  | .hbm, ⟨26, _⟩ => ⟨S32x256, .f32⟩
  | .hbm, ⟨27, _⟩ => ⟨S_, .f32⟩
  | .hbm, ⟨28, _⟩ => ⟨S32, .f32⟩
  | .hbm, ⟨29, _⟩ => ⟨S32x1, .f32⟩
  | .hbm, ⟨30, _⟩ => ⟨S32x1, .f32⟩
  | .hbm, ⟨31, _⟩ => ⟨S32x256, .f32⟩
  | .hbm, ⟨32, _⟩ => ⟨S32x256, .f32⟩
  | .hbm, ⟨33, _⟩ => ⟨S32x1, .i32⟩
  | .hbm, ⟨34, _⟩ => ⟨S_, .i32⟩
  | .hbm, ⟨35, _⟩ => ⟨S32x1, .i32⟩
  | .hbm, ⟨36, _⟩ => ⟨S32x1, .i1⟩
  | .hbm, ⟨37, _⟩ => ⟨S_, .i32⟩
  | .hbm, ⟨38, _⟩ => ⟨S32x1, .i32⟩
  | .hbm, ⟨39, _⟩ => ⟨S32x1, .i32⟩
  | .hbm, ⟨40, _⟩ => ⟨S32x1, .i32⟩
  | .hbm, ⟨41, _⟩ => ⟨S32x1x1, .i32⟩
  | .hbm, ⟨42, _⟩ => ⟨S1, .i32⟩
  | .hbm, ⟨43, _⟩ => ⟨S_, .i32⟩
  | .hbm, ⟨44, _⟩ => ⟨S32x1x1, .i32⟩
  | .hbm, ⟨45, _⟩ => ⟨S32x1x1, .i1⟩
  | .hbm, ⟨46, _⟩ => ⟨S1x1x1, .i32⟩
  | .hbm, ⟨47, _⟩ => ⟨S32x1x1, .i32⟩
  | .hbm, ⟨48, _⟩ => ⟨S32x1x1, .i1⟩
  | .hbm, ⟨49, _⟩ => ⟨S32x1x1, .i1⟩
  | .hbm, ⟨50, _⟩ => ⟨S_, .i1⟩
  | .hbm, ⟨51, _⟩ => ⟨S32x1, .i1⟩
  | .hbm, ⟨52, _⟩ => ⟨S32x1, .f32⟩
  | .hbm, ⟨53, _⟩ => ⟨S_, .f32⟩
  | .hbm, ⟨54, _⟩ => ⟨S32x1, .f32⟩
  | .hbm, ⟨55, _⟩ => ⟨S32x1, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | _, _ => ⟨S32x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_call0_cst : Ref sig .tc := ⟨.hbm, 18, rfl⟩
abbrev main_call0_v0 : Ref sig .tc := ⟨.hbm, 19, rfl⟩
abbrev main_call0_cst_0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_cst_1 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_v11 : Ref sig .tc := ⟨.hbm, 32, rfl⟩
abbrev main_v12 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_cst : Ref sig .tc := ⟨.hbm, 53, rfl⟩
abbrev main_call1_v14 : Ref sig .tc := ⟨.hbm, 54, rfl⟩
abbrev main_v13 : Ref sig .tc := ⟨.hbm, 55, rfl⟩
abbrev main_cst_3 : Ref sig .tc := ⟨.hbm, 56, rfl⟩
abbrev main_v14 : Ref sig .tc := ⟨.hbm, 57, rfl⟩
abbrev main_cst_4 : Ref sig .tc := ⟨.hbm, 58, rfl⟩
abbrev main_v15 : Ref sig .tc := ⟨.hbm, 59, rfl⟩
abbrev main_v16 : Ref sig .tc := ⟨.hbm, 60, rfl⟩

abbrev nD : Nat := 1
abbrev τ : Topo := Topo.v7x

variable {F : FTy → Type} [FloatOps F]

class Facts₀ : Prop where
  transposes_S256x200x32x32_S32x256x32x200_2_0_3_1 : S256x200x32x32.Transposes [2, 0, 3, 1] S32x256x32x200
  reducesTo_S32x256x32x200_S32x256x32_d3 : S32x256x32x200.ReducesTo [3] S32x256x32
  h_S_ : 0 < S_.numel
  reducesTo_S32x256x32_S32x256_d2 : S32x256x32.ReducesTo [2] S32x256
  bcast_S_S32x256 : S_.BroadcastsInDim S32x256 (![] : Fin 0 → Fin S32x256.rank)
  bcast_S_S32 : S_.BroadcastsInDim S32 (![] : Fin 0 → Fin S32.rank)
  reducesTo_S32x256_S32_d1 : S32x256.ReducesTo [1] S32
  bcast_S32_S32x1_0 : S32.BroadcastsInDim S32x1 (![0] : Fin 1 → Fin S32x1.rank)
  bcast_S32x1_S32x256_0_1 : S32x1.BroadcastsInDim S32x256 (![0, 1] : Fin 2 → Fin S32x256.rank)
  bcast_S_S32x1 : S_.BroadcastsInDim S32x1 (![] : Fin 0 → Fin S32x1.rank)
  shapeCasts_S32x1_S32x1x1 : S32x1.ShapeCasts S32x1x1
  bcast_S_S32x1x1 : S_.BroadcastsInDim S32x1x1 (![] : Fin 0 → Fin S32x1x1.rank)
  bcast_S1_S1x1x1_2 : S1.BroadcastsInDim S1x1x1 (![2] : Fin 1 → Fin S1x1x1.rank)
  bcast_S1x1x1_S32x1x1_0_1_2 : S1x1x1.BroadcastsInDim S32x1x1 (![0, 1, 2] : Fin 3 → Fin S32x1x1.rank)
  reducesTo_S32x1x1_S32x1_d2 : S32x1x1.ReducesTo [2] S32x1
  reducesTo_S32x1_S_d0_1 : S32x1.ReducesTo [0, 1] S_
  dot_S256x200x128_S32x32x128_S256x200x32x32_2_2_01_01_n_n_wf : DotDims.WF S256x200x128 S32x32x128 S256x200x32x32 [2] [2] [0, 1] [0, 1] [] []
  gather_S32x256_S32x1x1_S32x1_n_1_0_0_1_2_11_wf : GatherDims.WF S32x256 S32x1x1 S32x1 [] [1] [0] [1] [0] 2 ![1, 1]

variable [Facts₀]

def dot_S256x200x128_S32x32x128_S256x200x32x32_2_2_01_01_n_n : DotDims S256x200x128 S32x32x128 S256x200x32x32 where
  lhsContracting := [2]
  rhsContracting := [2]
  lhsNonContracting := [0, 1]
  rhsNonContracting := [0, 1]
  lhsBatch := []
  rhsBatch := []
  wf := dot_S256x200x128_S32x32x128_S256x200x32x32_2_2_01_01_n_n_wf
def gather_S32x256_S32x1x1_S32x1_n_1_0_0_1_2_11 : GatherDims S32x256 S32x1x1 S32x1 where
  offsetDims := []
  collapsedSliceDims := [1]
  operandBatchingDims := [0]
  startIndicesBatchingDims := [0]
  startIndexMap := [1]
  indexVectorDim := 2
  sliceSizes := ![1, 1]
  wf := gather_S32x256_S32x1x1_S32x1_n_1_0_0_1_2_11_wf

class Facts : Prop extends Facts₀ where

variable [Facts]
-- ==== Proof.BlockPieces.lean ====
/-
  What the kernel body leaves in its output block, as a list of stores. The body loads the whole document tile once and
  then, for each of the 32 queries n, loads that query's 32 × 128 token matrix and stores ONE row of the output block:
  row n, all 128 lanes. So every store in the body's list is, for some n, the row-n store of the per-query payload
  applied to the document tile and to query n's tokens — whatever the order of the list.
-/
import proofs.«126206_j20658792693954_2_alg».proof.Proof.Gen.KernelIdeal.Frame
import Idealize.ShloMosaic.Lib.Pipeline.Value

noncomputable section

namespace Cert.KernelIdeal.Block

open Cert.KernelIdeal Cert.KernelIdeal.Gen
open Idealize.ShloMosaic Idealize.ShloMosaic.TcCoe Idealize.SL.Sem

variable {F : FTy → Type} [FloatOps F]

/-- Query n's tokens, as the body loads them: the 1 × 32 × 128 slab of the query block at row n. -/
abbrev queryRow (x0 : Vec F S32x32x128 .bf16) (k : Fin k0_t1_loop.trips) : Vec F S1x32x128 .bf16 :=
  View.ld x0 (Rect.unit (s := S32x32x128) (k0_off1 k) S1x32x128.size (k0_off1_inb k))

/-- The store of trip n: row n of the output block, holding the payload of the document tile and query n's tokens. -/
abbrev rowStore (x0 : Vec F S32x32x128 .bf16) (x1 : Vec F S200x128x128 .bf16) (k : Fin k0_t1_loop.trips) :
    View.Piece (Elt F) S32x128 .f32 :=
  ⟨Rect.unit (s := S32x128) (k0_off2 k) S1x128.size (k0_off2_inb k), k0_pay1 x1 (queryRow x0 k)⟩

variable (𝒱 : Variants) (c : Dev nD) (bd : Option 𝒱.V) (i : grid0.Coords)
  (arg1 : Memref sig .tc .vmem S32x32x128 .bf16) (harg1 : arg1.IsWhole)
  (arg2 : Memref sig .tc .vmem S200x128x128 .bf16) (harg2 : arg2.IsWhole)
  (arg3 : Memref sig .tc .vmem S32x128 .f32) (harg3 : arg3.IsWhole)

/-- One trip of the loop stores exactly one piece. -/
theorem trip_pieces (v0 : Vec F S200x128x128 .bf16) (X : BufTy.Contents (Elt F) arg1.view.ty) (k : Fin k0_t1_loop.trips) :
    tripL_k0_t1 (F := F) 𝒱 c bd i arg1 harg1 arg2 harg2 arg3 harg3 v0 X k
      = [⟨Rect.unit (s := S32x128) (k0_off2 k) S1x128.size (k0_off2_inb k),
          k0_pay1 v0 (View.readAt (Elt F) arg1.view (Rect.unit (s := S32x32x128) (k0_off1 k) S1x32x128.size (k0_off1_inb k)).toLoadRect X)⟩] := by
  unfold tripL_k0_t1 trip_k0_t1
  rfl

/-- A piece among those of the trips before n is some trip's. -/
theorem mem_trips (v0 : Vec F S200x128x128 .bf16) (X : BufTy.Contents (Elt F) arg1.view.ty) :
    ∀ (n : ℕ) (p : View.Piece (Elt F) S32x128 .f32),
      p ∈ pb_k0_t1 (F := F) 𝒱 c bd i arg1 harg1 arg2 harg2 arg3 harg3 v0 X n →
      ∃ k : Fin k0_t1_loop.trips, p ∈ tripL_k0_t1 (F := F) 𝒱 c bd i arg1 harg1 arg2 harg2 arg3 harg3 v0 X k
  | 0, p, h => by rw [pb_k0_t1.eq_1] at h; exact absurd h List.not_mem_nil
  | n + 1, p, h => by
    rw [pb_k0_t1.eq_2] at h
    unfold pb_k0_t1Step at h
    split at h
    · rename_i hn
      rcases List.mem_append.mp h with h | h
      · exact ⟨⟨n, hn⟩, h⟩
      · exact mem_trips v0 X n p h
    · exact mem_trips v0 X n p h

/-- Every store of the body, run on whole staging buffers holding the query block `x0` and the document tile `x1`, is
    the row store of some query. -/
theorem mem_body (x0 : Vec F S32x32x128 .bf16) (x1 : Vec F S200x128x128 .bf16) (p : View.Piece (Elt F) S32x128 .f32)
    (hp : p ∈ (kernelRun0_A (F := F) c i arg1 harg1 arg2 harg2 arg3 harg3 x0 x1).1) :
    ∃ k : Fin k0_t1_loop.trips, p = rowStore x0 x1 k := by
  unfold kernelRun0_A at hp
  dsimp only at hp
  obtain ⟨k, hk⟩ := mem_trips Variants.none c none i arg1 harg1 arg2 harg2 arg3 harg3 _ _ _ p hp
  rw [trip_pieces] at hk
  refine ⟨k, (List.mem_singleton.mp hk).trans ?_⟩
  have hz : (![0, 0, 0] : Fin 3 → Nat) = fun _ => 0 := funext fun a => by fin_cases a <;> rfl
  simp only [View.readAt_eq_ld, harg1.read_unread, harg2.read_unread, View.ld_unit_zero (S := S200x128x128) hz]

end Cert.KernelIdeal.Block

end
-- ==== Proof.MaxSim.lean ====
/-
  The late-interaction score of a query n against a document m. Every query token q is matched with the document
  token d whose embedding has the largest inner product with it, and the 32 matches are averaged:
      score n m = (Σ_q max_d ⟨hq n q, hd m d⟩) / 32
  on the extended reals, the maximum taken from −∞. This file states that function of the two argument arrays, index by
  index, and nothing else.
-/
import Idealize.ShloMosaic.PureOps.Ideal
import Idealize.ShloMosaic.Lib.ValueIdx

noncomputable section

open scoped BigOperators

namespace Cert.MaxSim

open Idealize.ShloMosaic Idealize.ShloMosaic.ValueIdx

/-- The query embeddings [n, q, h], the document embeddings [m, d, h], the score matrix [n, m]. -/
abbrev SQ : Shape := ⟨3, ![32, 32, 128]⟩
abbrev SD : Shape := ⟨3, ![256, 200, 128]⟩
abbrev SS : Shape := ⟨2, ![32, 256]⟩

/-- The maximum of 200 extended reals, from −∞. -/
def best (f : Fin 200 → EReal) : EReal :=
  (Finset.univ : Finset (Fin 200)).fold max (Ideal.ofBits .f32 0xFF800000#32) f

/-- The inner product of query n's token q with document m's token d over the 128 embedding coordinates. -/
def inner (hq : SQ.Idx → EReal) (hd : SD.Idx → EReal) (n q : Fin 32) (m : Fin 256) (d : Fin 200) : EReal :=
  ∑ h : Fin 128, hq (ix3 n q h) * hd (ix3 m d h)

/-- The mean over the query tokens of each token's best match among the document's tokens. -/
def score (hq : SQ.Idx → EReal) (hd : SD.Idx → EReal) : SS.Idx → EReal := fun i =>
  Ideal.div (∑ q : Fin 32, best fun d => inner hq hd (i 0) q (i 1) d) (Ideal.ofBits .f32 0x42000000#32)

end Cert.MaxSim

end
-- ==== Proof.Payload.lean ====
/-
  The per-query payload read at a lane, on the extended reals. Given the document tile `hd` [d, l, h] (200 tokens of 128
  documents, 128 coordinates) and one query's tokens `q` [1, q, h], the payload's lane l is

      (Σ_q max_d Σ_h q[0, q, h] · hd[d, l, h]) / 32.

  The tile is flattened to 25600 rows (row d·128 + l is token d of document l), multiplied against the query's tokens into
  a zero accumulator (the contraction over h, a plain sum at the ideal values), unflattened to [q, d, l], maximised over
  d from −∞, summed over q, and divided by 32.
-/
import proofs.«126206_j20658792693954_2_alg».proof.Proof.Gen.KernelIdeal.Skeleton
import proofs.«126206_j20658792693954_2_alg».proof.Proof.MaxSim
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen
open Idealize.ShloMosaic Idealize.ShloMosaic.ValueIdx

/-- Row d·128 + l of the flattened document tile is token d of document l. -/
theorem flat_apply (v0 : Vec Ideal S200x128x128 .bf16) (d : Fin 200) (l h : Fin 128) (r : Fin 25600)
    (hr : r.val = d.val * 128 + l.val) :
    shapeCast S25600x128 (shapeCast S200x128x128 v0 shapeCasts_S200x128x128_S200x128x128) shapeCasts_S200x128x128_S25600x128 (ix2 r h)
      = v0 (ix3 d l h) := by
  rw [shapeCast_self]
  exact shapeCast_apply _ _ _ _ (by
    rw [Shape.rowMajor_val_three, Shape.rowMajor_val_two]
    show (d.val * 128 + l.val) * 128 + h.val = r.val * 128 + h.val
    rw [hr])

/-- In the product's dimension numbers the left operand's row index is the result's row index, -/
theorem lhs_row (j : S32x25600.Idx) (k : dot_S32x128_S25600x128_S32x25600_1_1_0_0_n_n.contr.Idx) :
    (dot_S32x128_S25600x128_S32x25600_1_1_0_0_n_n.lhsIdx j k 0).val = (j 0).val := by
  unfold DotDims.lhsIdx
  rw [dif_neg (show ¬(0 : Fin S32x128.rank) ∈ dot_S32x128_S25600x128_S32x25600_1_1_0_0_n_n.lhsBatch by decide),
    dif_pos (show (0 : Fin S32x128.rank) ∈ dot_S32x128_S25600x128_S32x25600_1_1_0_0_n_n.lhsNonContracting by decide)]
  rfl
/-- the right operand's row index is the result's column index, -/
theorem rhs_row (j : S32x25600.Idx) (k : dot_S32x128_S25600x128_S32x25600_1_1_0_0_n_n.contr.Idx) :
    (dot_S32x128_S25600x128_S32x25600_1_1_0_0_n_n.rhsIdx j k 0).val = (j 1).val := by
  unfold DotDims.rhsIdx
  rw [dif_neg (show ¬(0 : Fin S25600x128.rank) ∈ dot_S32x128_S25600x128_S32x25600_1_1_0_0_n_n.rhsBatch by decide),
    dif_pos (show (0 : Fin S25600x128.rank) ∈ dot_S32x128_S25600x128_S32x25600_1_1_0_0_n_n.rhsNonContracting by decide)]
  rfl
/-- and both operands' column index is the contracted coordinate. -/
theorem lhs_col (j : S32x25600.Idx) (k : dot_S32x128_S25600x128_S32x25600_1_1_0_0_n_n.contr.Idx) :
    (dot_S32x128_S25600x128_S32x25600_1_1_0_0_n_n.lhsIdx j k 1).val = (k ⟨0, by decide⟩).val :=
  dot_S32x128_S25600x128_S32x25600_1_1_0_0_n_n.lhsIdx_val_of_single rfl j k
theorem rhs_col (j : S32x25600.Idx) (k : dot_S32x128_S25600x128_S32x25600_1_1_0_0_n_n.contr.Idx) :
    (dot_S32x128_S25600x128_S32x25600_1_1_0_0_n_n.rhsIdx j k 1).val = (k ⟨0, by decide⟩).val :=
  dot_S32x128_S25600x128_S32x25600_1_1_0_0_n_n.rhsIdx_val_of_single rfl j k

/-- The product of the query's tokens with the flattened tile, into zero: entry (q, r) is the inner product of token q
    with row r over the 128 coordinates. -/
theorem product_apply (a : FVec Ideal S32x128 .bf16) (b : FVec Ideal S25600x128 .bf16) (q : Fin 32) (r : Fin 25600) :
    matmul dot_S32x128_S25600x128_S32x25600_1_1_0_0_n_n none a b (constant S32x25600 .f32 0x00000000#32) (ix2 q r)
      = ∑ h : Fin 128, a (ix2 q h) * b (ix2 r h) := by
  simp only [matmul]
  rw [Ideal.matmul_constant_zero_apply,
    ← Equiv.sum_comp (contrEquiv1 dot_S32x128_S25600x128_S32x25600_1_1_0_0_n_n 128 rfl rfl).symm]
  refine Finset.sum_congr rfl fun h _ => ?_
  have hk := contrEquiv1_symm_val dot_S32x128_S25600x128_S32x25600_1_1_0_0_n_n 128 rfl rfl h
  have el : dot_S32x128_S25600x128_S32x25600_1_1_0_0_n_n.lhsIdx (ix2 q r)
      ((contrEquiv1 dot_S32x128_S25600x128_S32x25600_1_1_0_0_n_n 128 rfl rfl).symm h) = ix2 q h :=
    funext fun c => Fin.ext (by
      match c with
      | ⟨0, _⟩ => exact lhs_row _ _
      | ⟨1, _⟩ => exact (lhs_col _ _).trans hk)
  have er : dot_S32x128_S25600x128_S32x25600_1_1_0_0_n_n.rhsIdx (ix2 q r)
      ((contrEquiv1 dot_S32x128_S25600x128_S32x25600_1_1_0_0_n_n 128 rfl rfl).symm h) = ix2 r h :=
    funext fun c => Fin.ext (by
      match c with
      | ⟨0, _⟩ => exact rhs_row _ _
      | ⟨1, _⟩ => exact (rhs_col _ _).trans hk)
  rw [el, er]

/-- Unflattened, entry (q, d, l) of the products is entry (q, d·128 + l). -/
theorem unflat_apply (v9 : FVec Ideal S32x25600 .f32) (q : Fin 32) (d : Fin 200) (l : Fin 128) (r : Fin 25600)
    (hr : r.val = d.val * 128 + l.val) :
    shapeCast S32x200x128 v9 shapeCasts_S32x25600_S32x200x128 (ix3 q d l) = v9 (ix2 q r) :=
  shapeCast_apply _ _ _ _ (by
    rw [Shape.rowMajor_val_three, Shape.rowMajor_val_two]
    show q.val * 25600 + r.val = (q.val * 200 + d.val) * 128 + l.val
    rw [hr]; ring)

/-- The maximum over the document's tokens, from −∞. -/
theorem tokenMax_apply (v10 : FVec Ideal S32x200x128 .f32) (q : Fin 32) (l : Fin 128) :
    multiReduction .maximumf [1] S32x128 v10 0xFF800000#32 reduces_S32x200x128_S32x128 (.inl rfl) rfl (ix2 q l)
      = Cert.MaxSim.best fun d => v10 (ix3 q d l) := by
  refine (Ideal.multiReduction_maximumf_single v10 0xFF800000#32 reduces_S32x200x128_S32x128 (.inl rfl) rfl (ix2 q l)).trans ?_
  unfold Cert.MaxSim.best
  refine congrArg (fun f => Finset.fold max (Ideal.ofBits .f32 0xFF800000#32) f (Finset.univ : Finset (Fin 200))) (funext fun d => ?_)
  exact congrArg v10 (funext fun c => Fin.ext (by match c with | ⟨0, _⟩ => rfl | ⟨1, _⟩ => rfl | ⟨2, _⟩ => rfl))

/-- The sum over the query's tokens. -/
theorem querySum_apply (v11 : FVec Ideal S32x128 .f32) (l : Fin 128) :
    multiReduction .add [0] S128 v11 0x00000000#32 reduces_S32x128_S128 (.inl rfl) rfl (ix1 l)
      = ∑ q : Fin 32, v11 (ix2 q l) := by
  refine (Ideal.multiReduction_add_single v11 0x00000000#32 reduces_S32x128_S128 (.inl rfl) rfl (ix1 l)).trans ?_
  refine Finset.sum_congr rfl fun q _ => ?_
  exact congrArg v11 (funext fun c => Fin.ext (by match c with | ⟨0, _⟩ => rfl | ⟨1, _⟩ => rfl))

/-- THE PAYLOAD AT A LANE. -/
theorem pay_apply (v0 : Vec Ideal S200x128x128 .bf16) (v7 : Vec Ideal S1x32x128 .bf16) (u : Fin 1) (l : Fin 128) :
    k0_pay1 (F := Ideal) v0 v7 (ix2 u l)
      = Ideal.div (∑ q : Fin 32, Cert.MaxSim.best fun d => ∑ h : Fin 128, v7 (ix3 (0 : Fin 1) q h) * v0 (ix3 d l h))
          (Ideal.ofBits .f32 0x42000000#32) := by
  unfold k0_pay1
  refine (shapeCast_a_1a_apply _ _ u l).trans ?_
  refine (divf_apply _ _ _).trans ?_
  refine congrArg₂ Ideal.div ((querySum_apply _ l).trans (Finset.sum_congr rfl fun q _ => ?_)) rfl
  refine (tokenMax_apply _ q l).trans (congrArg Cert.MaxSim.best (funext fun d => ?_))
  have hlt : d.val * 128 + l.val < 25600 := by have := d.isLt; have := l.isLt; omega
  refine (unflat_apply _ q d l ⟨d.val * 128 + l.val, hlt⟩ rfl).trans ?_
  refine (product_apply _ _ q _).trans (Finset.sum_congr rfl fun h _ => ?_)
  exact congrArg₂ (· * ·) (shapeCast_1ab_ab_apply _ _ q h) (flat_apply v0 d l h ⟨d.val * 128 + l.val, hlt⟩ rfl)

end Cert.KernelIdeal.Payload

end
-- ==== Proof.Block.lean ====
/-
  The output block the kernel body leaves, index by index: at row n and lane l it is the score of query n of the query
  block against document l of the document tile,
      (Σ_q max_d Σ_h x0[n, q, h] · x1[d, l, h]) / 32.
  The body's stores cover the block, each is the row store of some query (BlockPieces), and the row store of query n at
  lane l is the payload of the tile and query n's tokens at lane l (Payload): stores that all restrict one function of
  the block index leave that function wherever a store lands.
-/
import proofs.«126206_j20658792693954_2_alg».proof.Proof.BlockPieces
import proofs.«126206_j20658792693954_2_alg».proof.Proof.Payload

noncomputable section

open scoped BigOperators

namespace Cert.KernelIdeal.Block

open Cert.KernelIdeal Cert.KernelIdeal.Gen
open Idealize.ShloMosaic Idealize.ShloMosaic.TcCoe Idealize.SL.Sem Idealize.ShloMosaic.ValueIdx

/-- The block of scores of the 32 queries against the tile's 128 documents. -/
def blockScore (x0 : Vec Ideal S32x32x128 .bf16) (x1 : Vec Ideal S200x128x128 .bf16) : S32x128.Idx → EReal := fun y =>
  Ideal.div (∑ q : Fin 32, Cert.MaxSim.best fun d => ∑ h : Fin 128, x0 (ix3 (y 0) q h) * x1 (ix3 d (y 1) h))
    (Ideal.ofBits .f32 0x42000000#32)

/-- The row store of query k restricts `blockScore` to row k. -/
theorem rowStore_apply (x0 : Vec Ideal S32x32x128 .bf16) (x1 : Vec Ideal S200x128x128 .bf16) (k : Fin k0_t1_loop.trips)
    (x : (rowStore x0 x1 k).1.shape.Idx) :
    (rowStore x0 x1 k).2 x = blockScore x0 x1 ((rowStore x0 x1 k).1.emb x) := by
  obtain ⟨u, l, rfl⟩ : ∃ (u : Fin 1) (l : Fin 128), x = ix2 u l := ⟨x 0, x 1, eq_ix2 x⟩
  show k0_pay1 (F := Ideal) x1 (queryRow x0 k) (ix2 u l) = _
  rw [Payload.pay_apply]
  unfold blockScore
  have hu : u.val = 0 := by omega
  have e1 := k0_off1_eq k
  have e2 := k0_off2_eq k
  refine congrArg (fun s => Ideal.div s _) (Finset.sum_congr rfl fun q _ => ?_)
  refine congrArg Cert.MaxSim.best (funext fun d => Finset.sum_congr rfl fun h _ => ?_)
  congr 1
  · show x0 ((Rect.unit (s := S32x32x128) (k0_off1 k) S1x32x128.size (k0_off1_inb k)).emb (ix3 (0 : Fin 1) q h)) = _
    refine congrArg x0 (funext fun a => Fin.ext ?_)
    match a with
    | ⟨0, _⟩ =>
      show k0_off1 k 0 + 1 * 0 = k0_off2 k 0 + 1 * u.val
      rw [e1, e2, hu]; rfl
    | ⟨1, _⟩ =>
      show k0_off1 k 1 + 1 * q.val = q.val
      rw [e1]; show 0 + 1 * q.val = q.val; omega
    | ⟨2, _⟩ =>
      show k0_off1 k 2 + 1 * h.val = h.val
      rw [e1]; show 0 + 1 * h.val = h.val; omega
  · refine congrArg x1 (funext fun a => Fin.ext ?_)
    match a with
    | ⟨0, _⟩ => rfl
    | ⟨1, _⟩ =>
      show l.val = k0_off2 k 1 + 1 * l.val
      rw [e2]; show l.val = 0 + 1 * l.val; omega
    | ⟨2, _⟩ => rfl

/-- THE BLOCK: what the body leaves in the output's staging buffer, run on whole staging buffers holding the query
    block `x0` and the document tile `x1`. -/
theorem out_eq (c : Dev nD) (i : grid0.Coords) (arg1 : Memref sig .tc .vmem S32x32x128 .bf16) (harg1 : arg1.IsWhole)
    (arg2 : Memref sig .tc .vmem S200x128x128 .bf16) (harg2 : arg2.IsWhole)
    (arg3 : Memref sig .tc .vmem S32x128 .f32) (harg3 : arg3.IsWhole)
    (x0 : Vec Ideal S32x32x128 .bf16) (x1 : Vec Ideal S200x128x128 .bf16) :
    out0_A_2 (F := Ideal) c i arg1 harg1 arg2 harg2 arg3 harg3 x0 x1 = blockScore x0 x1 := by
  unfold out0_A_2
  rw [View.read_writes_eq_canon _ _ _ (cover0_A_2 c i arg1 harg1 arg2 harg2 arg3 harg3 x0 x1)]
  funext y
  refine View.canon_apply_of_pieces (blockScore x0 x1) _ (fun p hp x => ?_) y
    (cover0_A_2 c i arg1 harg1 arg2 harg2 arg3 harg3 x0 x1 y)
  obtain ⟨k, rfl⟩ := mem_body c i arg1 harg1 arg2 harg2 arg3 harg3 x0 x1 p hp
  exact rowStore_apply x0 x1 k x

end Cert.KernelIdeal.Block

end
-- ==== Proof.ScoreArray.lean ====
/-
  The kernel's score matrix after the run is `MaxSim.score` of the two argument arrays.

  The query window stages the whole query array (a change of float format of the first argument: the identity on the
  extended reals) at both grid points; the document window's block at point t is documents 128·t … 128·t + 127 of the
  second argument with its first two axes exchanged (token-major) and its format changed; the output window's block at
  point t is columns 128·t … 128·t + 127 of the score matrix. So the block the body leaves at point t (Block) is, at row n
  and lane l, the score of query n against document 128·t + l, and the two points' blocks tile the 32 × 256 matrix.
-/
import proofs.«126206_j20658792693954_2_alg».proof.Proof.Block
import Idealize.ShloMosaic.Lib.Pipeline.Value
import Idealize.ShloMosaic.Lib.StableHlo.Run

noncomputable section

open scoped BigOperators

namespace Cert.KernelIdeal.Final

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The two arguments as the kernel is launched with them. -/
abbrev hq (c : Dev nD) : S32x32x128.Idx → EReal := m ((c : Thread nD τ).loc main_arg0)
abbrev hd (c : Dev nD) : S256x200x128.Idx → EReal := m ((c : Thread nD τ).loc main_arg1)

/-- The query window's array as the region finds it is the first argument. -/
theorem V_queries (c : Dev nD) : (V m c main_v0 : S32x32x128.Idx → EReal) = hq m c := by
  show StableHlo.after hostOps0 (fun b => m (c, b)) (Proc.devRef .tc main_v0) = _
  after_results
  rfl

/-- The document window's array as the region finds it is the second argument, token-major. -/
theorem V_documents (c : Dev nD) (d : Fin 200) (mm : Fin 256) (h : Fin 128) :
    (V m c main_v2 : S200x256x128.Idx → EReal) (ix3 d mm h) = hd m c (ix3 mm d h) := by
  have e : (V m c main_v2 : S200x256x128.Idx → EReal)
      = transpose S200x256x128 [1, 0, 2] (hd m c) transposes_S256x200x128_S200x256x128_1_0_2 := by
    show StableHlo.after hostOps0 (fun b => m (c, b)) (Proc.devRef .tc main_v2) = _
    after_results
    rfl
  rw [e]
  exact transpose_apply [1, 0, 2] _ _ _ _ (fun b => match b with | ⟨0, _⟩ => rfl | ⟨1, _⟩ => rfl | ⟨2, _⟩ => rfl)

/-- The printed index maps over the grid: the query window never moves; the document window and the output window step
    along the document axis with the point. -/
theorem idx_facts : ∀ t : Fin cfg0.N,
    win0_0.index t (0 : Fin 3) = 0 ∧ win0_0.index t (1 : Fin 3) = 0 ∧ win0_0.index t (2 : Fin 3) = 0
    ∧ win0_1.index t (0 : Fin 3) = 0 ∧ win0_1.index t (1 : Fin 3) = t.val ∧ win0_1.index t (2 : Fin 3) = 0
    ∧ win0_2.index t (0 : Fin 2) = 0 ∧ win0_2.index t (1 : Fin 2) = t.val :=
  (by decide +kernel : ∀ t : Fin grid0.N, _)

/-- WHAT POINT t WRITES BACK is block t of the score matrix of the two arguments. -/
theorem flushed_eq (c : Dev nD) (t : Fin cfg0.N) :
    (dats m 0 c).flushed 2 t = ((cfg0.win 2).blk t).view.read (Elt Ideal) (Cert.MaxSim.score (hq m c) (hd m c)) := by
  show (cfg0.win 2).cut (grid0.coords t) ((dats m 0 c).after 2 t) = _
  rw [after0_2]
  have hout : outsAt0 m c t = Block.blockScore (iblk m c 0 t) (iblk m c 1 t) :=
    Block.out_eq c (grid0.coords t) (ms0_0 t) (hs0_0 t) (ms0_1 t) (hs0_1 t) (ms0_2 t) (hs0_2 t) (iblk m c 0 t) (iblk m c 1 t)
  rw [hout]
  obtain ⟨a0, a1, a2, b0, b1, b2, c0, c1⟩ := idx_facts t
  have ht : t.val < 2 := Nat.lt_of_lt_of_eq t.isLt N_0
  funext j
  obtain ⟨n, l, rfl⟩ : ∃ (n : Fin 32) (l : Fin 128), j = ix2 n l := ⟨j 0, j 1, eq_ix2 j⟩
  have hl : t.val * 128 + l.val < 256 := by have := l.isLt; omega
  show Block.blockScore (iblk m c 0 t) (iblk m c 1 t) (ix2 n l)
    = Cert.MaxSim.score (hq m c) (hd m c) (((cfg0.win 2).blk t).view.emb (ix2 n l))
  have ej : ((cfg0.win 2).blk t).view.emb (ix2 n l) = ix2 n (⟨t.val * 128 + l.val, hl⟩ : Fin 256) := by
    funext a; apply Fin.ext
    match a with
    | ⟨0, _⟩ => show win0_2.index t (0 : Fin 2) * 32 + 1 * n.val = n.val; rw [c0]; omega
    | ⟨1, _⟩ => show win0_2.index t (1 : Fin 2) * 128 + 1 * l.val = t.val * 128 + l.val; rw [c1]; omega
  rw [ej]
  unfold Block.blockScore Cert.MaxSim.score Cert.MaxSim.inner
  refine congrArg (fun s => Ideal.div s _) (Finset.sum_congr rfl fun q _ =>
    congrArg Cert.MaxSim.best (funext fun d => Finset.sum_congr rfl fun h _ => ?_))
  refine congrArg₂ (· * ·) ?_ ?_
  · show V m c main_v0 (((cfg0.win 0).blk t).view.emb (ix3 n q h)) = hq m c (ix3 n q h)
    rw [V_queries]
    refine congrArg (hq m c) (funext fun a => Fin.ext ?_)
    match a with
    | ⟨0, _⟩ => show win0_0.index t (0 : Fin 3) * 32 + 1 * n.val = n.val; rw [a0]; omega
    | ⟨1, _⟩ => show win0_0.index t (1 : Fin 3) * 32 + 1 * q.val = q.val; rw [a1]; omega
    | ⟨2, _⟩ => show win0_0.index t (2 : Fin 3) * 128 + 1 * h.val = h.val; rw [a2]; omega
  · show V m c main_v2 (((cfg0.win 1).blk t).view.emb (ix3 d l h)) = hd m c (ix3 (⟨t.val * 128 + l.val, hl⟩ : Fin 256) d h)
    refine Eq.trans (congrArg (V m c main_v2) ?_) (V_documents m c d ⟨t.val * 128 + l.val, hl⟩ h)
    funext a; apply Fin.ext
    match a with
    | ⟨0, _⟩ => show win0_1.index t (0 : Fin 3) * 200 + 1 * d.val = d.val; rw [b0]; omega
    | ⟨1, _⟩ => show win0_1.index t (1 : Fin 3) * 128 + 1 * l.val = t.val * 128 + l.val; rw [b1]; omega
    | ⟨2, _⟩ => show win0_1.index t (2 : Fin 3) * 128 + 1 * h.val = h.val; rw [b2]; omega

/-- An index of the score matrix is in point t's block iff each coordinate is in the block's range on its axis. -/
theorem mem_blk (t : Fin cfg0.N) (i : S32x256.Idx) :
    i ∈ ((cfg0.win 2).blk t).view.set ↔ ∀ a : Fin 2, win0_2.index t a * S32x128.size a ≤ (i a).val
      ∧ (i a).val < win0_2.index t a * S32x128.size a + S32x128.size a := by
  show i ∈ ((View.whole main_v3).slice (win0_2.rect t)).set ↔ _
  rw [View.set_slice_whole, Rect.mem_set_unit]
  exact Iff.rfl

/-- THE SCORE MATRIX after the run: column m is written by the point m / 128. -/
theorem final (c : Dev nD) : (dats m 0 c).arrAt 2 cfg0.N = Cert.MaxSim.score (hq m c) (hd m c) :=
  (dats m 0 c).arrAt_eq_of_cover 2 (Cert.MaxSim.score (hq m c) (hd m c)) (fun t _ => flushed_eq m c t) fun i => by
    have hi0 : (i 0).val < 32 := (i 0).isLt
    have hi1 : (i 1).val < 256 := (i 1).isLt
    have hN : cfg0.N = 2 := N_0
    have hlt : (i 1).val / 128 < cfg0.N := by rw [hN]; omega
    obtain ⟨_, _, _, _, _, _, c0, c1⟩ := idx_facts ⟨(i 1).val / 128, hlt⟩
    refine ⟨⟨(i 1).val / 128, hlt⟩, flush0_2 _, ?_⟩
    rw [mem_blk]
    intro a
    match a with
    | ⟨0, _⟩ =>
      show win0_2.index ⟨(i 1).val / 128, hlt⟩ (0 : Fin 2) * 32 ≤ (i 0).val
        ∧ (i 0).val < win0_2.index ⟨(i 1).val / 128, hlt⟩ (0 : Fin 2) * 32 + 32
      rw [c0]; omega
    | ⟨1, _⟩ =>
      show win0_2.index ⟨(i 1).val / 128, hlt⟩ (1 : Fin 2) * 128 ≤ (i 1).val
        ∧ (i 1).val < win0_2.index ⟨(i 1).val / 128, hlt⟩ (1 : Fin 2) * 128 + 128
      rw [c1]; show (i 1).val / 128 * 128 ≤ (i 1).val ∧ (i 1).val < (i 1).val / 128 * 128 + 128; omega

end Cert.KernelIdeal.Final

end
-- ==== Proof.Tail.lean ====
/-
  What both programs do with the score matrix s [32, 256] once they have it — the same operations, in the same order: the
  row-wise log-softmax  s − max_row(s) − log Σ_row exp(s − max_row(s)),  its entries at the columns 0, 8, 16, …, 248 (row
  n reads column 8·n, through the bounds-checked gather that would answer NaN outside [0, 255]), their sum from 0, divided
  by 32, negated. It is stated here ONCE, as one function `loss` of s, and never opened: the kernel's tail and the
  reference's are this function of their score matrices, so equal scores give equal losses.
  This file also reads the kernel's two results off its frame run: the score matrix is the output window's array after
  the region, and the loss is what the host operations after the region compute from it.
-/
import proofs.«126206_j20658792693954_2_alg».proof.Proof.Gen.KernelIdeal.Frame
import Idealize.ShloMosaic.Lib.Pipeline.Value
import Idealize.ShloMosaic.Lib.StableHlo.Run

noncomputable section

namespace Cert.KernelIdeal.Tail

open Cert.KernelIdeal Cert.KernelIdeal.Gen Idealize.ShloMosaic Idealize.ShloMosaic.TcCoe Idealize.SL.Sem Idealize.ShloMosaic.StableHlo
open Idealize.ShloMosaic.Pipeline (Dat)

variable {F : FTy → Type} [FloatOps F]

set_option maxRecDepth 8192 in
/-- The mean negative log-likelihood of the diagonal documents, as one function of the score matrix. -/
def loss (s : (⟨S32x256, .f32⟩ : BufTy).Contents (Elt F)) : (⟨S_, .f32⟩ : BufTy).Contents (Elt F) :=
  Host.negf (Host.divf (Host.reduceAdd (select (Host.reduce IntOp.andi (andi (cmpi .sge (shapeCast _ (select (cmpi .slt (broadcastInDim S32x1 ![0] bcast_S32_S32x1_0 (addi (broadcastInDim S32 ![] bcast_S_S32 (constantI S_ 32 0#32)) (muli (broadcastInDim S32 ![] bcast_S_S32 (constantI S_ 32 8#32)) (iotaInDim S32 32 0)))) (broadcastInDim S32x1 ![] bcast_S_S32x1 (constantI S_ 32 0#32))) (addi (broadcastInDim S32x1 ![0] bcast_S32_S32x1_0 (addi (broadcastInDim S32 ![] bcast_S_S32 (constantI S_ 32 0#32)) (muli (broadcastInDim S32 ![] bcast_S_S32 (constantI S_ 32 8#32)) (iotaInDim S32 32 0)))) (broadcastInDim S32x1 ![] bcast_S_S32x1 (constantI S_ 32 256#32))) (broadcastInDim S32x1 ![0] bcast_S32_S32x1_0 (addi (broadcastInDim S32 ![] bcast_S_S32 (constantI S_ 32 0#32)) (muli (broadcastInDim S32 ![] bcast_S_S32 (constantI S_ 32 8#32)) (iotaInDim S32 32 0))))) shapeCasts_S32x1_S32x1x1) (broadcastInDim S32x1x1 ![] bcast_S_S32x1x1 (constantI S_ 32 0#32))) (cmpi .sle (shapeCast _ (select (cmpi .slt (broadcastInDim S32x1 ![0] bcast_S32_S32x1_0 (addi (broadcastInDim S32 ![] bcast_S_S32 (constantI S_ 32 0#32)) (muli (broadcastInDim S32 ![] bcast_S_S32 (constantI S_ 32 8#32)) (iotaInDim S32 32 0)))) (broadcastInDim S32x1 ![] bcast_S_S32x1 (constantI S_ 32 0#32))) (addi (broadcastInDim S32x1 ![0] bcast_S32_S32x1_0 (addi (broadcastInDim S32 ![] bcast_S_S32 (constantI S_ 32 0#32)) (muli (broadcastInDim S32 ![] bcast_S_S32 (constantI S_ 32 8#32)) (iotaInDim S32 32 0)))) (broadcastInDim S32x1 ![] bcast_S_S32x1 (constantI S_ 32 256#32))) (broadcastInDim S32x1 ![0] bcast_S32_S32x1_0 (addi (broadcastInDim S32 ![] bcast_S_S32 (constantI S_ 32 0#32)) (muli (broadcastInDim S32 ![] bcast_S_S32 (constantI S_ 32 8#32)) (iotaInDim S32 32 0))))) shapeCasts_S32x1_S32x1x1) (broadcastInDim S32x1x1 ![0, 1, 2] bcast_S1x1x1_S32x1x1_0_1_2 (broadcastInDim S1x1x1 ![2] bcast_S1_S1x1x1_2 (constantI S1 32 255#32))))) (constantI S_ 1 1#1) reducesTo_S32x1x1_S32x1_d2 h_S_) (Host.gather gather_S32x256_S32x1x1_S32x1_n_1_0_0_1_2_11 (subf (subf (s) (broadcastInDim S32x256 ![0, 1] bcast_S32x1_S32x256_0_1 (broadcastInDim S32x1 ![0] bcast_S32_S32x1_0 (maximumf (broadcastInDim S32 ![] bcast_S_S32 (constant S_ .f32 0xFF800000#32)) (Host.reduce FloatOps.maximumf (s) (constant S_ .f32 0xFF800000#32) reducesTo_S32x256_S32_d1 h_S_))))) (broadcastInDim S32x256 ![0, 1] bcast_S32x1_S32x256_0_1 (Host.log (broadcastInDim S32x1 ![0] bcast_S32_S32x1_0 (Host.reduceAdd (Host.exp (subf (s) (broadcastInDim S32x256 ![0, 1] bcast_S32x1_S32x256_0_1 (broadcastInDim S32x1 ![0] bcast_S32_S32x1_0 (maximumf (broadcastInDim S32 ![] bcast_S_S32 (constant S_ .f32 0xFF800000#32)) (Host.reduce FloatOps.maximumf (s) (constant S_ .f32 0xFF800000#32) reducesTo_S32x256_S32_d1 h_S_)))))) (constant S_ .f32 0x00000000#32) reducesTo_S32x256_S32_d1 h_S_))))) (shapeCast _ (select (cmpi .slt (broadcastInDim S32x1 ![0] bcast_S32_S32x1_0 (addi (broadcastInDim S32 ![] bcast_S_S32 (constantI S_ 32 0#32)) (muli (broadcastInDim S32 ![] bcast_S_S32 (constantI S_ 32 8#32)) (iotaInDim S32 32 0)))) (broadcastInDim S32x1 ![] bcast_S_S32x1 (constantI S_ 32 0#32))) (addi (broadcastInDim S32x1 ![0] bcast_S32_S32x1_0 (addi (broadcastInDim S32 ![] bcast_S_S32 (constantI S_ 32 0#32)) (muli (broadcastInDim S32 ![] bcast_S_S32 (constantI S_ 32 8#32)) (iotaInDim S32 32 0)))) (broadcastInDim S32x1 ![] bcast_S_S32x1 (constantI S_ 32 256#32))) (broadcastInDim S32x1 ![0] bcast_S32_S32x1_0 (addi (broadcastInDim S32 ![] bcast_S_S32 (constantI S_ 32 0#32)) (muli (broadcastInDim S32 ![] bcast_S_S32 (constantI S_ 32 8#32)) (iotaInDim S32 32 0))))) shapeCasts_S32x1_S32x1x1)) (broadcastInDim S32x1 ![] bcast_S_S32x1 (constant S_ .f32 0x7FC00000#32))) (constant S_ .f32 0x00000000#32) reducesTo_S32x1_S_d0_1 h_S_) (constant S_ .f32 0x42000000#32))

variable (m : (ℓ : Loc nD τ sig) → Buf (Elt F) ℓ)

set_option maxRecDepth 65536 in
set_option maxHeartbeats 2000000 in
/-- The kernel's second result: the host operations after the region, run from the memory the region leaves, compute
    `loss` of the output window's array. -/
theorem loss_eq (c : Dev nD) :
    Pipeline.afterTail₀ cfgs (dats m) 0 (V0 m) [hostOps1, hostOps1_1, hostOps1_2, hostOps1_3, hostOps1_4] c main_v14
      = loss ((dats m 0 c).arrAt 2 cfg0.N) := by
  have hw := Pipeline.withArrays_arr spec0 launch0.win.arr_inj c (V0 m c) (fun w => (dats m 0 c).arrAt w cfg0.N) 2
  unfold Pipeline.afterTail₀
  simp only [hostOps1, hostOps1_1, hostOps1_2, hostOps1_3, hostOps1_4, List.flatten_cons, List.flatten_nil, List.append_nil,
    List.cons_append, List.nil_append]
  after_results_simp
  refine Eq.trans ?_ (congrArg loss hw)
  unfold loss
  rfl

end Cert.KernelIdeal.Tail

end
-- ==== Proof.KernelValue.lean ====
/-
  The idealized kernel's run, read: the score matrix ends at `MaxSim.score` of the two arguments (the output window's
  array after the two grid points), the loss at `Tail.loss` of that matrix (the host operations after the region), and the
  arguments end as they were launched.
-/
import proofs.«126206_j20658792693954_2_alg».proof.Proof.ScoreArray
import proofs.«126206_j20658792693954_2_alg».proof.Proof.Tail

noncomputable section

namespace Cert.KernelIdeal.Result

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The score matrix of the launch contents. -/
abbrev scores (c : Dev nD) : Buf (Elt Ideal) ((c.tc : Thread nD τ).loc main_v3) :=
  Cert.MaxSim.score (Final.hq m c) (Final.hd m c)

theorem run : θ_run defs (onTc (τ := τ) (main (F := Ideal))) ⟨m, fun _ => 0, ρ⟩ fun r => ∀ c : Dev nD,
      r.2.mem ((c.tc : Thread nD τ).loc main_v3) = scores m c
      ∧ r.2.mem ((c.tc : Thread nD τ).loc main_v14) = Tail.loss (F := Ideal) (scores m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).1 2).trans (Final.final m c),
      ((h c).2 main_v14 (Pipeline.mem_restRefs_of main_v14 (by decide) (by decide))).trans
        ((Tail.loss_eq m c).trans (congrArg (Tail.loss (F := Ideal)) (Final.final m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Result

end
-- ==== Proof.RefScore.lean ====
/-
  The reference's score matrix is `MaxSim.score` of its two arguments. The reference contracts the document embeddings
  [m, d, h] with the query embeddings [n, q, h] over h into [m, d, n, q], transposes to [n, m, q, d], takes the maximum
  over d from −∞, sums over q from 0 and divides by 32: at (n, m) that is (Σ_q max_d Σ_h hd[m,d,h] · hq[n,q,h]) / 32, and
  the product commutes.
-/
import proofs.«126206_j20658792693954_2_alg».proof.Proof.RefRead
import proofs.«126206_j20658792693954_2_alg».proof.Proof.MaxSim
import Idealize.ShloMosaic.PureOps.Reduce

noncomputable section

open scoped BigOperators

namespace Cert.ReferenceIdeal.Score

open Cert.ReferenceIdeal Cert.ReferenceIdeal.Gen Cert.ReferenceIdeal.Read
open Idealize.ShloMosaic Idealize.ShloMosaic.ValueIdx

/-- The maximum over the document's tokens of the transposed products, from −∞. -/
theorem tokenMax_apply (x0 : (⟨S32x32x128, .f32⟩ : BufTy).Contents (Elt Ideal)) (x1 : (⟨S256x200x128, .f32⟩ : BufTy).Contents (Elt Ideal))
    (n : Fin 32) (mm : Fin 256) (q : Fin 32) :
    val_main_v2 (F := Ideal) x0 x1 (ix3 n mm q) = Cert.MaxSim.best fun d => Cert.MaxSim.inner x0 x1 n q mm d := by
  unfold val_main_v2
  rw [Host.reduce_eq_fold_single FloatOps.maximumf _ _ reducesTo_S32x256x32x200_S32x256x32_d3 (by decide) h_S_]
  unfold Cert.MaxSim.best
  refine congrArg (fun f => Finset.fold max _ f (Finset.univ : Finset (Fin 200))) (funext fun d => ?_)
  show val_main_v1 (F := Ideal) x0 x1 _ = _
  rw [val_main_v1_apply, val_main_v0_apply]
  unfold Cert.MaxSim.inner
  refine Finset.sum_congr rfl fun h _ => ?_
  rw [mul_comm]
  congr 1
  · exact congrArg x0 (funext fun c => Fin.ext (by match c with | ⟨0, _⟩ => rfl | ⟨1, _⟩ => rfl | ⟨2, _⟩ => rfl))
  · exact congrArg x1 (funext fun c => Fin.ext (by match c with | ⟨0, _⟩ => rfl | ⟨1, _⟩ => rfl | ⟨2, _⟩ => rfl))

/-- THE REFERENCE'S SCORE MATRIX. -/
theorem score_eq (x0 : (⟨S32x32x128, .f32⟩ : BufTy).Contents (Elt Ideal)) (x1 : (⟨S256x200x128, .f32⟩ : BufTy).Contents (Elt Ideal)) :
    val_main_v5 (F := Ideal) x0 x1 = Cert.MaxSim.score x0 x1 := by
  funext i
  obtain ⟨n, mm, rfl⟩ : ∃ (n : Fin 32) (mm : Fin 256), i = ix2 n mm := ⟨i 0, i 1, eq_ix2 i⟩
  have e4 : val_main_v4 (F := Ideal) (ix2 n mm) = Ideal.ofBits .f32 0x42000000#32 :=
    (val_main_v4_apply (F := Ideal) (ix2 n mm)).trans rfl
  have e3 : val_main_v3 (F := Ideal) x0 x1 (ix2 n mm)
      = ∑ q : Fin 32, Cert.MaxSim.best fun d => Cert.MaxSim.inner x0 x1 n q mm d := by
    refine (val_main_v3_apply x0 x1 (ix2 n mm)).trans ?_
    refine Eq.trans (congrArg (· + _) (show val_main_cst_0 (F := Ideal) (Shape.Idx.first h_S_) = 0 from Ideal.ofBits_zero_f32)) ?_
    rw [zero_add]
    refine Finset.sum_congr rfl fun q _ => ?_
    exact Eq.trans (congrArg (val_main_v2 (F := Ideal) x0 x1) (funext fun c => Fin.ext (by
      match c with | ⟨0, _⟩ => rfl | ⟨1, _⟩ => rfl | ⟨2, _⟩ => rfl))) (tokenMax_apply x0 x1 n mm q)
  exact (val_main_v5_apply x0 x1 (ix2 n mm)).trans (congrArg₂ Ideal.div e3 e4)

end Cert.ReferenceIdeal.Score

end
-- ==== Proof.RefLoss.lean ====
/-
  The reference's second result is `Tail.loss` of its score matrix: after the division by 32 that ends the score matrix the
  reference runs the very operations `Tail.loss` lists, on its own buffers.
-/
import proofs.«126206_j20658792693954_2_alg».proof.Proof.RefRead
import proofs.«126206_j20658792693954_2_alg».proof.Proof.Tail

noncomputable section

namespace Cert.ReferenceIdeal.Loss

open Cert.ReferenceIdeal Cert.ReferenceIdeal.Gen Cert.ReferenceIdeal.Read
open Idealize.ShloMosaic Idealize.ShloMosaic.TcCoe Idealize.SL.Sem

set_option maxRecDepth 65536 in
set_option maxHeartbeats 2000000 in
theorem loss_eq (m : (ℓ : Loc nD τ sig) → Buf (Elt Ideal) ℓ) (c : Dev nD) :
    (Cert.ReferenceIdeal.Value.res_main_v16 m c : (⟨Cert.KernelIdeal.S_, .f32⟩ : BufTy).Contents (Elt Ideal))
      = Cert.KernelIdeal.Tail.loss (F := Ideal)
          (val_main_v5 (F := Ideal) (m ((c.tc : Thread nD τ).loc main_arg0)) (m ((c.tc : Thread nD τ).loc main_arg1))) := by
  unfold Cert.ReferenceIdeal.Value.res_main_v16 Cert.KernelIdeal.Tail.loss
  rfl

end Cert.ReferenceIdeal.Loss

end
-- ==== Proof.lean ====
/-
  A kernel computing late-interaction (max-sim) retrieval scores and their contrastive loss, against its jnp reference, on
  the extended reals.

  Both programs take query embeddings hq [32, 32, 128] and document embeddings hd [256, 200, 128] and return
    * the score matrix  score n m = (Σ_q max_d Σ_h hq[n,q,h] · hd[m,d,h]) / 32   (MaxSim.score), and
    * the loss: minus the mean over n of the log-softmax of row n of the scores at column 8·n   (Tail.loss of the scores).
  The kernel tiles the documents into two blocks of 128, loops over the 32 queries inside each block and stores one row of
  its output block per query; the reference contracts, transposes and reduces whole arrays. On the extended reals a change
  of float format is the identity, a matrix product into zero is the plain sum over h, and the two sides differ only in the
  order of the two factors of each product and in the layout through which the same entries are reached. No law that needs
  finite entries is used, so the precondition is never opened.

    frames      the two kernels' by their generated frame proofs; the reference's is its generated run with the results dropped.
    preserves   the idealization rewrote no operation: nothing to show.
    algebraic   the kernel's score array is MaxSim.score of the arguments (Block, ScoreArray) and its loss Tail.loss of that
                (Tail, KernelValue); the reference's score matrix is MaxSim.score of its arguments (RefScore) and its loss
                Tail.loss of that (RefLoss); the arguments agree.
-/
import proofs.«126206_j20658792693954_2_alg».proof.Defs
import proofs.«126206_j20658792693954_2_alg».proof.Proof.Gen.Kernel
import proofs.«126206_j20658792693954_2_alg».proof.Proof.Gen.Kernel.Skeleton
import proofs.«126206_j20658792693954_2_alg».proof.Proof.Gen.Kernel.Loops
import proofs.«126206_j20658792693954_2_alg».proof.Proof.Gen.Kernel.Launch
import proofs.«126206_j20658792693954_2_alg».proof.Proof.Gen.Kernel.Points
import proofs.«126206_j20658792693954_2_alg».proof.Proof.Gen.Kernel.Frame
import proofs.«126206_j20658792693954_2_alg».proof.Proof.Gen.KernelIdeal
import proofs.«126206_j20658792693954_2_alg».proof.Proof.Gen.KernelIdeal.Skeleton
import proofs.«126206_j20658792693954_2_alg».proof.Proof.Gen.KernelIdeal.Loops
import proofs.«126206_j20658792693954_2_alg».proof.Proof.Gen.KernelIdeal.Launch
import proofs.«126206_j20658792693954_2_alg».proof.Proof.Gen.KernelIdeal.Points
import proofs.«126206_j20658792693954_2_alg».proof.Proof.Gen.KernelIdeal.Frame
import proofs.«126206_j20658792693954_2_alg».proof.Proof.Gen.ReferenceIdeal
import proofs.«126206_j20658792693954_2_alg».proof.Proof.Gen.Pre_finite_inputs
import proofs.«126206_j20658792693954_2_alg».proof.Proof.KernelValue
import proofs.«126206_j20658792693954_2_alg».proof.Proof.RefScore
import proofs.«126206_j20658792693954_2_alg».proof.Proof.RefLoss
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the score matrix at `MaxSim.score` of the (agreeing) arguments and the loss at `Tail.loss` of it. -/
theorem algebraic : Cert.algebraic_KernelIdeal_ReferenceIdeal := by
  intro m ρ m' ρ' _ hagree
  refine ⟨fun c => Cert.KernelIdeal.Result.scores m c,
    fun c => Cert.KernelIdeal.Tail.loss (F := Ideal) (Cert.KernelIdeal.Result.scores m c),
    Cert.KernelIdeal.Result.run m ρ, ?_⟩
  refine (θ_run Cert.ReferenceIdeal.defs _ _).mono (fun _ h c => ?_) (Cert.ReferenceIdeal.Value.run (F := Ideal) m' ρ')
  have hs : Cert.ReferenceIdeal.Read.val_main_v5 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      = Cert.KernelIdeal.Result.scores m c :=
    (Cert.ReferenceIdeal.Score.score_eq _ _).trans (congrArg₂ Cert.MaxSim.score (hagree c).1 (hagree c).2)
  exact ⟨(h c).1.trans ((Cert.ReferenceIdeal.Read.val_main_v5_eq _ _).trans hs),
    (h c).2.1.trans ((Cert.ReferenceIdeal.Loss.loss_eq m' c).trans (congrArg (Cert.KernelIdeal.Tail.loss (F := Ideal)) hs)),
    (h c).2.2.1, (h c).2.2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
